-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S128x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.FrameBits.lean ====
/-
  The frame of the pairwise root-mean-square distance kernel as printed (the word-level program), read at any float instance.

  The kernel tiles the 8192 x 8192 result into 8 x 8 blocks of 1024 x 1024.  At grid point (i, j) it is handed rows
  1024 i .. 1024 i + 1023 of x through its first window and rows 1024 j .. 1024 j + 1023 of THE SAME array x through its
  second window, and writes block (i, j) of the result.  Because both input windows sit on one array, the array is
  held in two halves of its full share, one per window: reading needs only a part of a share, and the two halves
  together are the whole, so the array comes back unchanged.  The result array is held whole.

  Per point the body reads both row blocks, computes one 1024 x 1024 tile from them and stores the tile over the
  whole staging buffer of the result window; nothing is carried from one point to the next.
-/
import proofs.«178684_j40364102647835_1_alg».proof.Proof.Gen.Kernel.Launch
import proofs.«178684_j40364102647835_1_alg».proof.Proof.Gen.Kernel.Skeleton
import proofs.«178684_j40364102647835_1_alg».proof.Proof.Gen.Kernel.Points
import Idealize.ShloMosaic.Lib.Pipeline.FrameBody
import Idealize.ShloMosaic.Lib.Pipeline.Frame
import Idealize.ShloMosaic.Lib.Pipeline.Launch
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the one region, so the region finds every buffer as it was launched. -/
abbrev entry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- The block of window w's array that grid point t addresses: 1024 rows of x for the two inputs, a 1024 x 1024 tile of
    the result for the output. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the block its index map names at every point, whether the point fetched it
    or an earlier point did and the index has not moved since (the row block of the first window is fetched once per
    eight points). -/
theorem found_rows_i {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem found_rows_j {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## One grid point -/

/-- The whole 1024 x 128 staging buffer of an input, and the whole 1024 x 1024 staging buffer of the result. -/
abbrev rowsRect : Rect S1024x128 := Rect.unit (s := S1024x128) ![0, 0] S1024x128.size inb_S1024x128_S1024x128_0_0
abbrev tileRect : Rect S1024x1024 := Rect.unit (s := S1024x1024) ![0, 0] S1024x1024.size inb_S1024x1024_S1024x1024_0_0

/-- What the body leaves in the result's staging buffer: the tile computed from the two row blocks, stored over the
    whole buffer. -/
def tile (xi xj : Vec F S1024x128 .f32) : Vec F S1024x1024 .f32 :=
  View.canon [⟨tileRect, k0_pay1 (View.ld xi rowsRect) (View.ld xj rowsRect)⟩]

/-- The one store covers the buffer. -/
theorem tile_covers (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

set_option maxHeartbeats 1000000 in
/-- The body on whole staging buffers: the inputs' at contents xi, xj and the result's at anything; it leaves the inputs'
    as they were and the result's at the tile. -/
theorem sound_kernel (c : Dev nD) (E : Set ℕ) (i : grid0.Coords) (arg2 : Memref sig .tc .vmem S1024x128 .f32) (harg2 : arg2.IsWhole)
    (arg3 : Memref sig .tc .vmem S1024x128 .f32) (harg3 : arg3.IsWhole) (arg4 : Memref sig .tc .vmem S1024x1024 .f32) (harg4 : arg4.IsWhole)
    (xi : Vec F S1024x128 .f32) (xj : Vec F S1024x128 .f32) (K : PUnit → sProp 𝕄) :
    iprop(owns (c : Thread nD τ) arg2 fullShare xi ∗ owns (c : Thread nD τ) arg3 fullShare xj ∗ (∃ d, owns (c : Thread nD τ) arg4 fullShare d)
        ∗ (iprop(owns (c : Thread nD τ) arg2 fullShare xi ∗ owns (c : Thread nD τ) arg3 fullShare xj ∗ owns (c : Thread nD τ) arg4 fullShare (tile xi xj)) -∗ K ⟨⟩))
      ⊢ wp frame (wpE (defs₀ (F := F)) Variants.none c none) E (cc0__pairdist_kernel i arg2 harg2 arg3 harg3 arg4 harg4) K := by
  simp only [cc0__pairdist_kernel_eq_skeleton]; unfold cc0__pairdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data of the pipeline -/

/-- On core c: the arrays as launched; after the body at point t each input's buffer still at its row block and the
    result's at the tile of the two row blocks; between points nothing but the scoped buffers the pipeline does not stage
    (there are none); nothing owed; the array x held in two halves, one per input window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_rows_i (c : Dev nD) (t : Fin cfg0.N) : (dats m 0 c).after 0 t = blockAt m c 0 t := by dsimp only [dats]
theorem after_rows_j (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by dsimp only [dats]

theorem before_rows_i (c : Dev nD) (t : Fin cfg0.N) (d) : (dats m 0 c).before 0 t d = blockAt m c 0 t :=
  found_rows_i m (dats m 0 c) (A_eq m c 0) (after_rows_i m c) t d
theorem before_rows_j (c : Dev nD) (t : Fin cfg0.N) (d) : (dats m 0 c).before 1 t d = blockAt m c 1 t :=
  found_rows_j m (dats m 0 c) (A_eq m c 1) (after_rows_j m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows_i, before_rows_j]
  rw [show (dats m 0 c).Φ t.succ = (dats m 0 c).Φ t.castSucc from rfl,
    show (dats m 0 c).owesAt () t.succ = (dats m 0 c).owesAt () t.castSucc from rfl,
    after_rows_i, after_rows_j, after_tile]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- Behind the three windows' arrays stand two buffers: x (both inputs) and the result. -/
theorem buffers_behind : (Finset.univ.image (Pipeline.arrRef spec0) : Finset (Ref sig .tc)) = {main_arg0, main_v0} := by decide

/-- The buffers behind the arrays, each whole, give every window its array at its share: x whole is x at one half
    and x at the other half. -/
theorem split_arrays (c : Dev nD) :
    (Pipeline.arrBufs spec0 c (entry m c) : sProp 𝕄) ⊢ (dats m 0 c).arrays ((dats m 0 c).arrAt · 0) := by
  unfold Pipeline.arrBufs Dat.arrays
  rw [buffers_behind, bigSep_insert (by decide), bigSep_singleton, bigSep_W0]
  have e0 : (cfg0.win 0).arr.view.set = Finset.univ := (arr_whole0 0).set_eq_univ
  have e2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [e0, e2, s0, s1, s2]
  refine (show iprop(((c.tc : Thread nD τ).loc main_arg0 ↦{fullShare} entry m c main_arg0) ∗ ((c.tc : Thread nD τ).loc main_v0 ↦{fullShare} entry m c main_v0)) ⊢ _ from ?_)
  iintro ⟨HX, HO⟩
  ihave HX := (pointsTo_share (PosShare.mem_left_op_right fullShare)).1 $$ HX
  icases HX with ⟨H1, H2⟩
  isplitl [H1]; · iexact H1
  isplitl [H2]; · iexact H2
  iexact HO

/-- At the compiled mesh, from any memory with zero counters: every weakly fair execution of the program terminates,
    nothing faulting, and every array of the pipeline ends at what the write-backs make of it — an input as it was,
    the result with each point's tile written over its block. -/
theorem run_main : θ_run defs (onTc (τ := τ) (main (F := F))) ⟨m, fun _ => 0, ρ⟩ (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := entry m) (hmain := main_is_region m Variants.none)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The frame: the program runs to the end and x ends as it was launched (it is only ever read). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Tiles

end
-- ==== Proof.FrameIdeal.lean ====
/-
  The frame of the pairwise root-mean-square distance kernel, read at any float instance.

  The kernel tiles the 8192 x 8192 result into 8 x 8 blocks of 1024 x 1024.  At grid point (i, j) it is handed rows
  1024 i .. 1024 i + 1023 of x through its first window and rows 1024 j .. 1024 j + 1023 of THE SAME array x through its
  second window, and writes block (i, j) of the result.  Because both input windows sit on one array, the array is
  held in two halves of its full share, one per window: reading needs only a part of a share, and the two halves
  together are the whole, so the array comes back unchanged.  The result array is held whole.

  Per point the body reads both row blocks, computes one 1024 x 1024 tile from them and stores the tile over the
  whole staging buffer of the result window; nothing is carried from one point to the next.
-/
import proofs.«178684_j40364102647835_1_alg».proof.Proof.Gen.KernelIdeal.Launch
import proofs.«178684_j40364102647835_1_alg».proof.Proof.Gen.KernelIdeal.Skeleton
import proofs.«178684_j40364102647835_1_alg».proof.Proof.Gen.KernelIdeal.Points
import Idealize.ShloMosaic.Lib.Pipeline.FrameBody
import Idealize.ShloMosaic.Lib.Pipeline.Frame
import Idealize.ShloMosaic.Lib.Pipeline.Launch
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the one region, so the region finds every buffer as it was launched. -/
abbrev entry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- The block of window w's array that grid point t addresses: 1024 rows of x for the two inputs, a 1024 x 1024 tile of
    the result for the output. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the block its index map names at every point, whether the point fetched it
    or an earlier point did and the index has not moved since (the row block of the first window is fetched once per
    eight points). -/
theorem found_rows_i {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem found_rows_j {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## One grid point -/

/-- The whole 1024 x 128 staging buffer of an input, and the whole 1024 x 1024 staging buffer of the result. -/
abbrev rowsRect : Rect S1024x128 := Rect.unit (s := S1024x128) ![0, 0] S1024x128.size inb_S1024x128_S1024x128_0_0
abbrev tileRect : Rect S1024x1024 := Rect.unit (s := S1024x1024) ![0, 0] S1024x1024.size inb_S1024x1024_S1024x1024_0_0

/-- What the body leaves in the result's staging buffer: the tile computed from the two row blocks, stored over the
    whole buffer. -/
def tile (xi xj : Vec F S1024x128 .f32) : Vec F S1024x1024 .f32 :=
  View.canon [⟨tileRect, k0_pay1 (View.ld xi rowsRect) (View.ld xj rowsRect)⟩]

/-- The one store covers the buffer. -/
theorem tile_covers (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

set_option maxHeartbeats 1000000 in
/-- The body on whole staging buffers: the inputs' at contents xi, xj and the result's at anything; it leaves the inputs'
    as they were and the result's at the tile. -/
theorem sound_kernel (c : Dev nD) (E : Set ℕ) (i : grid0.Coords) (arg2 : Memref sig .tc .vmem S1024x128 .f32) (harg2 : arg2.IsWhole)
    (arg3 : Memref sig .tc .vmem S1024x128 .f32) (harg3 : arg3.IsWhole) (arg4 : Memref sig .tc .vmem S1024x1024 .f32) (harg4 : arg4.IsWhole)
    (xi : Vec F S1024x128 .f32) (xj : Vec F S1024x128 .f32) (K : PUnit → sProp 𝕄) :
    iprop(owns (c : Thread nD τ) arg2 fullShare xi ∗ owns (c : Thread nD τ) arg3 fullShare xj ∗ (∃ d, owns (c : Thread nD τ) arg4 fullShare d)
        ∗ (iprop(owns (c : Thread nD τ) arg2 fullShare xi ∗ owns (c : Thread nD τ) arg3 fullShare xj ∗ owns (c : Thread nD τ) arg4 fullShare (tile xi xj)) -∗ K ⟨⟩))
      ⊢ wp frame (wpE (defs₀ (F := F)) Variants.none c none) E (cc0__pairdist_kernel i arg2 harg2 arg3 harg3 arg4 harg4) K := by
  simp only [cc0__pairdist_kernel_eq_skeleton]; unfold cc0__pairdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data of the pipeline -/

/-- On core c: the arrays as launched; after the body at point t each input's buffer still at its row block and the
    result's at the tile of the two row blocks; between points nothing but the scoped buffers the pipeline does not stage
    (there are none); nothing owed; the array x held in two halves, one per input window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_rows_i (c : Dev nD) (t : Fin cfg0.N) : (dats m 0 c).after 0 t = blockAt m c 0 t := by dsimp only [dats]
theorem after_rows_j (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by dsimp only [dats]

theorem before_rows_i (c : Dev nD) (t : Fin cfg0.N) (d) : (dats m 0 c).before 0 t d = blockAt m c 0 t :=
  found_rows_i m (dats m 0 c) (A_eq m c 0) (after_rows_i m c) t d
theorem before_rows_j (c : Dev nD) (t : Fin cfg0.N) (d) : (dats m 0 c).before 1 t d = blockAt m c 1 t :=
  found_rows_j m (dats m 0 c) (A_eq m c 1) (after_rows_j m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows_i, before_rows_j]
  rw [show (dats m 0 c).Φ t.succ = (dats m 0 c).Φ t.castSucc from rfl,
    show (dats m 0 c).owesAt () t.succ = (dats m 0 c).owesAt () t.castSucc from rfl,
    after_rows_i, after_rows_j, after_tile]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- Behind the three windows' arrays stand two buffers: x (both inputs) and the result. -/
theorem buffers_behind : (Finset.univ.image (Pipeline.arrRef spec0) : Finset (Ref sig .tc)) = {main_arg0, main_v0} := by decide

/-- The buffers behind the arrays, each whole, give every window its array at its share: x whole is x at one half
    and x at the other half. -/
theorem split_arrays (c : Dev nD) :
    (Pipeline.arrBufs spec0 c (entry m c) : sProp 𝕄) ⊢ (dats m 0 c).arrays ((dats m 0 c).arrAt · 0) := by
  unfold Pipeline.arrBufs Dat.arrays
  rw [buffers_behind, bigSep_insert (by decide), bigSep_singleton, bigSep_W0]
  have e0 : (cfg0.win 0).arr.view.set = Finset.univ := (arr_whole0 0).set_eq_univ
  have e2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [e0, e2, s0, s1, s2]
  refine (show iprop(((c.tc : Thread nD τ).loc main_arg0 ↦{fullShare} entry m c main_arg0) ∗ ((c.tc : Thread nD τ).loc main_v0 ↦{fullShare} entry m c main_v0)) ⊢ _ from ?_)
  iintro ⟨HX, HO⟩
  ihave HX := (pointsTo_share (PosShare.mem_left_op_right fullShare)).1 $$ HX
  icases HX with ⟨H1, H2⟩
  isplitl [H1]; · iexact H1
  isplitl [H2]; · iexact H2
  iexact HO

/-- At the compiled mesh, from any memory with zero counters: every weakly fair execution of the program terminates,
    nothing faulting, and every array of the pipeline ends at what the write-backs make of it — an input as it was,
    the result with each point's tile written over its block. -/
theorem run_main : θ_run defs (onTc (τ := τ) (main (F := F))) ⟨m, fun _ => 0, ρ⟩ (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := entry m) (hmain := main_is_region m Variants.none)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The frame: the program runs to the end and x ends as it was launched (it is only ever read). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Tiles

end
-- ==== Proof.PairDist.lean ====
/-
  The specification both programs are compared with.

  For a matrix x of 8192 rows of 128 extended reals, entry (r, s) of the result is the root of the clamped mean
  squared distance of rows r and s, written the way both programs compute it:

      sqrt( max( (|x_r|^2 + |x_s|^2 - 2 <x_r, x_s>) / 128 , 0 ) + eps ),

  with 2, 128, 0 and eps the values of the float words both programs print (eps is the float nearest to 1e-6).
  The word of each constant is the same on both sides, so none is ever evaluated.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The distance of two vectors a, b of 128 extended reals: the two squared norms added, twice the inner product taken
    away, the mean over the 128 coordinates, clamped below at zero, eps added, the root. -/
def rowDist (a b : Fin 128 → EReal) : EReal :=
  Ideal.sqrt (max (Ideal.div (((∑ k : Fin 128, a k * a k) + ∑ k : Fin 128, b k * b k)
        - Ideal.ofBits .f32 0x40000000#32 * ∑ k : Fin 128, a k * b k) (Ideal.ofBits .f32 0x43000000#32))
      (Ideal.ofBits .f32 0x00000000#32) + Ideal.ofBits .f32 0x358637BD#32)

/-- Row r of a matrix with 128 columns. -/
abbrev row {n : Nat} (x : (⟨2, ![n, 128]⟩ : Shape).Idx → EReal) (r : Fin n) : Fin 128 → EReal := fun k => x (ix2 r k)

/-- The whole result: entry (r, s) is the distance of rows r and s. -/
def dist (x : (⟨2, ![8192, 128]⟩ : Shape).Idx → EReal) : (⟨2, ![8192, 8192]⟩ : Shape).Idx → EReal :=
  fun i => rowDist (row x (i 0)) (row x (i 1))

theorem dist_apply (x : (⟨2, ![8192, 128]⟩ : Shape).Idx → EReal) (r s : Fin 8192) :
    dist x (ix2 r s) = rowDist (row x r) (row x s) := rfl

end Cert.PairDist

end
-- ==== Proof.RefDist.lean ====
/-
  The reference computes the specification: read one operation at a time, entry (r, s) of its result is the distance
  of rows r and s of its argument.

  Its two squared norms are host sums that start from the zero word, 0 + sum; the specification's start from nothing.
  That 0 + y = y on the extended reals is the only law used; every other step is the same operation on both sides.
-/
import proofs.«178684_j40364102647835_1_alg».proof.Proof.Gen.ReferenceIdeal.Read
import proofs.«178684_j40364102647835_1_alg».proof.Proof.PairDist

noncomputable section

namespace Cert.ReferenceIdeal.AsDist

open Cert.ReferenceIdeal Cert.ReferenceIdeal.Gen Cert.ReferenceIdeal.Read Cert.PairDist
open Idealize.ShloMosaic Idealize.ShloMosaic.ValueIdx

/-! ## Where each operand is read -/

/-- The squared norm broadcast down the columns reads row r of x; -/
theorem norm_rows (r s : Fin 8192) (k : Fin 128) : idx_main_v1 (idx_main_v4 (idx_main_v6 (ix2 r s))) k = ix2 r k :=
  funext fun a => Fin.ext (by match a with | ⟨0, _⟩ => rfl | ⟨1, _⟩ => rfl)

/-- the one broadcast along the rows reads row s; -/
theorem norm_cols (r s : Fin 8192) (k : Fin 128) : idx_main_v1 (idx_main_v5 (idx_main_v7 (ix2 r s))) k = ix2 s k :=
  funext fun a => Fin.ext (by match a with | ⟨0, _⟩ => rfl | ⟨1, _⟩ => rfl)

/-- the product x xᵀ at (r, s) pairs row r of x -/
theorem gram_left (r s : Fin 8192) (k : Fin 128) : lidx_main_v3 (ix2 r s) k = ix2 r k :=
  funext fun a => Fin.ext (by match a with | ⟨0, _⟩ => rfl | ⟨1, _⟩ => rfl)

/-- with column s of the transpose, which is row s of x. -/
theorem gram_right (r s : Fin 8192) (k : Fin 128) : idx_main_v2 (ridx_main_v3 (ix2 r s) k) = ix2 s k :=
  funext fun a => Fin.ext (by match a with | ⟨0, _⟩ => rfl | ⟨1, _⟩ => rfl)

/-! ## The reference is the specification -/

theorem reference_is_dist (x : (⟨S8192x128, .f32⟩ : BufTy).Contents (Elt Ideal)) :
    val_main_v18 (F := Ideal) x = dist x := by
  funext i
  obtain ⟨r, s, rfl⟩ : ∃ (r s : Fin 8192), i = ix2 r s := ⟨i 0, i 1, eq_ix2 i⟩
  rw [dist_apply]
  unfold rowDist row
  rw [val_main_v18_apply, val_main_v17_apply, val_main_v15_apply, val_main_v13_apply, val_main_v11_apply, val_main_v8_apply,
    val_main_v10_apply, val_main_v6_apply, val_main_v7_apply, val_main_v4_apply, val_main_v5_apply, val_main_v1_apply, val_main_v1_apply,
    val_main_v3_apply, val_main_v9_apply, val_main_v12_apply, val_main_v14_apply, val_main_v16_apply]
  simp only [val_main_v0_apply, val_main_v2_apply, val_main_cst_apply, val_main_cst_0_apply, val_main_cst_1_apply,
    val_main_cst_2_apply, val_main_cst_3_apply, norm_rows, norm_cols, gram_left, gram_right,
    Ideal.addf_def, Ideal.subf_def, Ideal.mulf_def, Ideal.hostDivf_def, Ideal.maximumf_def, Ideal.hostUnary_sqrt_def,
    Ideal.ofBits_def, Ideal.ofBits_zero_f32, zero_add]

end Cert.ReferenceIdeal.AsDist

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.TileDist.lean ====
/-
  One tile of the kernel: from a block xi of 1024 rows and a block xj of 1024 rows, entry (p, q) of the 1024 x 1024
  tile the body stores is the distance of row p of xi and row q of xj.

  The body's arithmetic is pointwise but for three pieces, each read here at an index:
    * the squared norms of xi's rows, summed along the lanes, recast as a column and spread over the columns;
    * the squared norms of xj's rows, summed, recast as a column, transposed to a row and spread over the rows;
    * the matrix product of xi with the transpose of xj into a zero accumulator, whose (p, q) entry is the inner
      product of row p of xi and row q of xj (the narrowing of both operands to the short float format is the
      identity on the extended reals).
-/
import proofs.«178684_j40364102647835_1_alg».proof.Proof.Gen.KernelIdeal.Skeleton
import proofs.«178684_j40364102647835_1_alg».proof.Proof.PairDist
import proofs.«178684_j40364102647835_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Cert.PairDist Cert.LibKeepdims
open Idealize.ShloMosaic Idealize.ShloMosaic.ValueIdx

/-! ## The three pieces that are not pointwise -/

/-- The squared norms of a block's rows: the lane sum of the squares. -/
def sqNorms (x : Vec Ideal S1024x128 .f32) : FVec Ideal S1024 .f32 :=
  multiReduction .add [1] S1024 (mulf x x) 0x00000000#32 reduces_S1024x128_S1024 (.inl rfl) rfl

/-- As a column, spread over 1024 columns. -/
def normsDown (x : Vec Ideal S1024x128 .f32) : FVec Ideal S1024x1024 .f32 :=
  broadcastTo S1024x1024 (shapeCast S1024x1 (sqNorms x) shapeCasts_S1024_S1024x1) broadcasts_S1024x1_S1024x1024

/-- As a row, spread over 1024 rows. -/
def normsAcross (x : Vec Ideal S1024x128 .f32) : FVec Ideal S1024x1024 .f32 :=
  broadcastTo S1024x1024 (transpose S1x1024 [1, 0] (shapeCast S1024x1 (sqNorms x) shapeCasts_S1024_S1024x1) transposes_S1024x1_p1_0_S1x1024)
    broadcasts_S1x1024_S1024x1024

/-- The product of xi with the transpose of xj. -/
def gramTile (xi xj : Vec Ideal S1024x128 .f32) : FVec Ideal S1024x1024 .f32 :=
  matmul dot_S1024x128_S128x1024_S1024x1024_1_0_0_1_n_n none (truncf .bf16 xi bitsLt_bf16_f32)
    (transpose S128x1024 [1, 0] (truncf .bf16 xj bitsLt_bf16_f32) transposes_S1024x128_p1_0_S128x1024)
    (constant S1024x1024 .f32 0x00000000#32)

/-- The body's stored value is the pointwise shell around them. -/
theorem payload_shell (xi xj : Vec Ideal S1024x128 .f32) :
    k0_pay1 (F := Ideal) xi xj
      = sqrt (addf (maximumf (divf (subf (addf (normsDown xi) (normsAcross xj))
            (mulf (broadcast S1024x1024 (Scalar.ofBits .f32 0x40000000#32)) (gramTile xi xj)))
          (broadcast S1024x1024 (Scalar.ofBits .f32 0x43000000#32)))
        (broadcast S1024x1024 (Scalar.ofBits .f32 0x00000000#32)))
      (broadcast S1024x1024 (Scalar.ofBits .f32 0x358637BD#32))) := rfl

/-! ## Each piece at an index -/

theorem sqNorms_at (x : Vec Ideal S1024x128 .f32) (p : Fin 1024) :
    sqNorms x (ix1 p) = ∑ k : Fin 128, x (ix2 p k) * x (ix2 p k) := by
  unfold sqNorms
  refine (Ideal.multiReduction_add_single (mulf x x) 0x00000000#32 reduces_S1024x128_S1024 (.inl rfl) rfl (ix1 p)).trans ?_
  refine Finset.sum_congr rfl fun k _ => ?_
  have e : reduces_S1024x128_S1024.lift (ix1 p) k = ix2 p k :=
    funext fun a => Fin.ext (by match a with | ⟨0, _⟩ => rfl | ⟨1, _⟩ => rfl)
  rw [e]; rfl

theorem normsDown_at (x : Vec Ideal S1024x128 .f32) (p q : Fin 1024) :
    normsDown x (ix2 p q) = ∑ k : Fin 128, x (ix2 p k) * x (ix2 p k) := by
  unfold normsDown
  rw [broadcastTo_a1_ab_apply, shapeCast_a_a1_apply]
  exact sqNorms_at x p

theorem normsAcross_at (x : Vec Ideal S1024x128 .f32) (p q : Fin 1024) :
    normsAcross x (ix2 p q) = ∑ k : Fin 128, x (ix2 q k) * x (ix2 q k) := by
  unfold normsAcross
  rw [broadcastTo_1b_ab_apply, transpose_ix2_apply, shapeCast_a_a1_apply]
  exact sqNorms_at x q

/-- The operand indices of the product at (p, q) and contraction coordinate k: (p, k) on the left, (k, q) on the right. -/
theorem gram_lhs0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem gram_lhs1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem gram_rhs0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem gram_rhs1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

theorem gramTile_at (xi xj : Vec Ideal S1024x128 .f32) (p q : Fin 1024) :
    gramTile xi xj (ix2 p q) = ∑ k : Fin 128, xi (ix2 p k) * xj (ix2 q k) := by
  unfold gramTile
  simp only [matmul]
  rw [Ideal.matmul_constant_zero_apply,
    ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q)
      ((ValueIdx.contrEquiv1 dot_S1024x128_S128x1024_S1024x1024_1_0_0_1_n_n 128 rfl rfl).symm k) = ix2 p k :=
    funext fun a => Fin.ext (by
      match a with
      | ⟨0, _⟩ => exact gram_lhs0 _ _
      | ⟨1, _⟩ => exact (gram_lhs1 _ _).trans hk)
  have er : dot_S1024x128_S128x1024_S1024x1024_1_0_0_1_n_n.rhsIdx (ix2 p q)
      ((ValueIdx.contrEquiv1 dot_S1024x128_S128x1024_S1024x1024_1_0_0_1_n_n 128 rfl rfl).symm k) = ix2 k q :=
    funext fun a => Fin.ext (by
      match a with
      | ⟨0, _⟩ => exact (gram_rhs0 _ _).trans hk
      | ⟨1, _⟩ => exact gram_rhs1 _ _)
  rw [el, er, transpose_ix2_apply]
  rfl

/-! ## The tile -/

/-- Entry (p, q) of the stored tile is the distance of row p of xi and row q of xj. -/
theorem tile_at (xi xj : Vec Ideal S1024x128 .f32) (p q : Fin 1024) :
    k0_pay1 (F := Ideal) xi xj (ix2 p q) = rowDist (fun k => xi (ix2 p k)) (fun k => xj (ix2 q k)) := by
  rw [payload_shell]
  show Ideal.sqrt (max (Ideal.div ((normsDown xi (ix2 p q) + normsAcross xj (ix2 p q))
      - Ideal.ofBits .f32 0x40000000#32 * gramTile xi xj (ix2 p q)) (Ideal.ofBits .f32 0x43000000#32))
    (Ideal.ofBits .f32 0x00000000#32) + Ideal.ofBits .f32 0x358637BD#32) = _
  rw [normsDown_at, normsAcross_at, gramTile_at]
  rfl

end Cert.KernelIdeal.TileValue

end
-- ==== Proof.KernelDist.lean ====
/-
  The kernel's result array, whole: after the run, entry (r, s) is the distance of rows r and s of x.

  Grid point t = (i, j) reads rows 1024 i + p of x through its first window and rows 1024 j + q through its second, and
  writes the tile whose entry (p, q) is their distance into block (i, j) of the result, that is at entry
  (1024 i + p, 1024 j + q): every write-back is the restriction of ONE function of x to the point's block.  The 8 x 8
  blocks tile the 8192 x 8192 result (entry (r, s) lies in block (r / 1024, s / 1024)), so that function is the array.
-/
import proofs.«178684_j40364102647835_1_alg».proof.Proof.FrameIdeal
import proofs.«178684_j40364102647835_1_alg».proof.Proof.TileDist
import proofs.«178684_j40364102647835_1_alg».proof.Proof.PairDist
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tiles Cert.KernelIdeal.TileValue Cert.PairDist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the first window's row block is the result's row block, the second window's row
    block is the result's column block, both inputs take all 128 columns, and the result's block indices stay below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point t writes back is its block of the distance matrix of x. -/
theorem flushed_is_block (c : Dev nD) (t : Fin cfg0.N) :
    (dats m 0 c).flushed 2 t = ((cfg0.win 2).blk t).view.read (Elt Ideal) (dist (entry m c main_arg0)) := by
  show (cfg0.win 2).cut (grid0.coords t) ((dats m 0 c).after 2 t) = _
  rw [after_tile]
  unfold tile
  rw [View.canon_unit_zero zero_offsets]
  simp only [View.ld_unit_zero (S := S1024x128) zero_offsets]
  obtain ⟨e0, e1, e2, e3, e4, e5⟩ := index_facts t
  funext j
  obtain ⟨p, q, rfl⟩ : ∃ (p q : Fin 1024), j = ix2 p q := ⟨j 0, j 1, eq_ix2 j⟩
  refine (tile_at (blockAt m c 0 t) (blockAt m c 1 t) p q).trans ?_
  have hp : p.val < 1024 := p.isLt
  have hq : q.val < 1024 := q.isLt
  have hout : ((cfg0.win 2).blk t).view.emb (ix2 p q)
      = ix2 (⟨win0_2.index t (0 : Fin 2) * 1024 + p.val, by omega⟩ : Fin 8192) (⟨win0_2.index t (1 : Fin 2) * 1024 + q.val, by omega⟩ : Fin 8192) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = win0_2.index t (1 : Fin 2) * 1024 + q.val; omega
  show _ = dist (entry m c main_arg0) (((cfg0.win 2).blk t).view.emb (ix2 p q))
  rw [hout, dist_apply]
  have hi : ∀ k : Fin 128, blockAt m c 0 t (ix2 p k)
      = entry m c main_arg0 (ix2 (⟨win0_2.index t (0 : Fin 2) * 1024 + p.val, by omega⟩ : Fin 8192) k) := fun k => by
    show entry m c main_arg0 (((cfg0.win 0).blk t).view.emb (ix2 p k)) = _
    refine congrArg (entry m c main_arg0) ?_
    funext a; apply Fin.ext
    match a with
    | ⟨0, _⟩ => show win0_0.index t (0 : Fin 2) * 1024 + 1 * p.val = win0_2.index t (0 : Fin 2) * 1024 + p.val; omega
    | ⟨1, _⟩ => show win0_0.index t (1 : Fin 2) * 128 + 1 * k.val = k.val; omega
  have hj : ∀ k : Fin 128, blockAt m c 1 t (ix2 q k)
      = entry m c main_arg0 (ix2 (⟨win0_2.index t (1 : Fin 2) * 1024 + q.val, by omega⟩ : Fin 8192) k) := fun k => by
    show entry m c main_arg0 (((cfg0.win 1).blk t).view.emb (ix2 q k)) = _
    refine congrArg (entry m c main_arg0) ?_
    funext a; apply Fin.ext
    match a with
    | ⟨0, _⟩ => show win0_1.index t (0 : Fin 2) * 1024 + 1 * q.val = win0_2.index t (1 : Fin 2) * 1024 + q.val; omega
    | ⟨1, _⟩ => show win0_1.index t (1 : Fin 2) * 128 + 1 * k.val = k.val; omega
  exact congrArg₂ rowDist (funext hi) (funext hj)

/-- An entry of the result is in point t's block iff each coordinate is in the block's range. -/
theorem mem_block (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Entry (r, s) lies in the block of the point with index (r / 1024, s / 1024). -/
theorem covered (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the distance matrix of x. -/
theorem final (c : Dev nD) : (dats m 0 c).arrAt 2 cfg0.N = dist (entry m c main_arg0) :=
  (dats m 0 c).arrAt_eq_of_cover 2 (dist (entry m c main_arg0)) (fun t _ => flushed_is_block m c t) covered

/-- The run, read: the result is the distance matrix of x and x is unchanged. -/
theorem run : θ_run defs (onTc (τ := τ) (main (F := Ideal))) ⟨m, fun _ => 0, ρ⟩ fun r => ∀ c : Dev nD,
      r.2.mem ((c.tc : Thread nD τ).loc main_v0) = dist (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c),
      (h c 0).trans (((dats m 0 c).arrAt_in 0 rfl _).trans (A_eq m c 0))⟩)
    (run_main m ρ)

end Cert.KernelIdeal.Whole

end
-- ==== Proof.lean ====
/-
  Pairwise root-mean-square distances: out[r, s] = sqrt( max( (|x_r|^2 + |x_s|^2 - 2 <x_r, x_s>) / 128, 0 ) + eps ) for the
  8192 rows x_r of a matrix x with 128 columns.

  The kernel computes the 8192 x 8192 result in 8 x 8 tiles of 1024 x 1024; at tile (i, j) it reads row block i and row
  block j of the same array x.  The reference computes the same expression on whole arrays.  Over the extended reals the
  two are one function of x, entry by entry: the operations and their grouping are the same on both sides, the
  narrowing of the matrix product's operands is the identity, a product into a zero accumulator is the plain sum, and the
  only law needed is 0 + y = y (the reference's row sums start from the zero word).  No step needs the inputs finite.

  The three frames: each kernel program runs to the end and leaves x as it was, x being only read — it is held in two
  halves of its share, one for each of the two windows that read it; the reference is a straight line of host operations.
  The idealization rewrote nothing, so there is nothing to preserve.
-/
import proofs.«178684_j40364102647835_1_alg».proof.Defs
import proofs.«178684_j40364102647835_1_alg».proof.Proof.Gen.Kernel
import proofs.«178684_j40364102647835_1_alg».proof.Proof.Gen.KernelIdeal
import proofs.«178684_j40364102647835_1_alg».proof.Proof.Gen.ReferenceIdeal
import proofs.«178684_j40364102647835_1_alg».proof.Proof.Gen.ReferenceIdeal.Run
import proofs.«178684_j40364102647835_1_alg».proof.Proof.Gen.ReferenceIdeal.Read
import proofs.«178684_j40364102647835_1_alg».proof.Proof.Gen.Pre_finite_inputs
import proofs.«178684_j40364102647835_1_alg».proof.Proof.FrameBits
import proofs.«178684_j40364102647835_1_alg».proof.Proof.FrameIdeal
import proofs.«178684_j40364102647835_1_alg».proof.Proof.RefDist
import proofs.«178684_j40364102647835_1_alg».proof.Proof.KernelDist
import Idealize.ShloMosaic.Adequacy
import Idealize.ShloMosaic.Init

noncomputable section

namespace Cert.Proof

open Idealize.ShloMosaic Idealize.ShloMosaic.TcCoe Idealize.SL.Sem

/-- The kernel as printed runs to the end and leaves x unchanged. -/
theorem frame_kernel : Cert.frame_Kernel := fun m ρ _ => Cert.Kernel.Tiles.frame m ρ

/-- So does its idealization. -/
theorem frame_kernel_ideal : Cert.frame_KernelIdeal := fun m ρ _ => Cert.KernelIdeal.Tiles.frame m ρ

/-- The reference is a straight line of host operations; its run leaves x unchanged. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, both idealized programs end with the distance matrix of x. -/
theorem algebraic : Cert.algebraic_KernelIdeal_ReferenceIdeal := by
  intro m ρ m' ρ' _ hagree
  refine ⟨fun c => Cert.PairDist.dist (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v18_eq _).trans (Cert.ReferenceIdeal.AsDist.reference_is_dist _)).trans
    (congrArg Cert.PairDist.dist (hagree c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
